-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 54
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000x1, .f32⟩
  | .hbm, ⟨20, _⟩ => ⟨S100000x128, .bf16⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x128, .bf16⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S1x128, .f32⟩
  | .hbm, ⟨36, _⟩ => ⟨S100000x128, .f32⟩
  | .hbm, ⟨37, _⟩ => ⟨S100000x128, .bf16⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x128, .bf16⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S1x128, .f32⟩
  | .hbm, ⟨53, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x1, .f32⟩
  | .local _ .vmem, ⟨15, _⟩ => ⟨S5000x1, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_c_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bitsLt_bf16_f32 : FTy.bits .bf16 < FTy.bits .f32
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 76
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .f32⟩
  | .hbm, ⟨8, _⟩ => ⟨S100000x128, .f32⟩
  | .hbm, ⟨9, _⟩ => ⟨S100000x128, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S_, .f32⟩
  | .hbm, ⟨24, _⟩ => ⟨S1600000, .f32⟩
  | .hbm, ⟨25, _⟩ => ⟨S_, .f32⟩
  | .hbm, ⟨26, _⟩ => ⟨S100000, .f32⟩
  | .hbm, ⟨27, _⟩ => ⟨S1600000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S_, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_call0_cst : Ref sig .tc := ⟨.hbm, 40, rfl⟩
abbrev main_call0_v0 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_c_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_cst_10 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_11 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩

abbrev nD : Nat := 1
abbrev τ : Topo := Topo.v7x

variable {F : FTy → Type} [FloatOps F]

class Facts₀ : Prop where
  bcast_S_S100000x128 : S_.BroadcastsInDim S100000x128 (![] : Fin 0 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel program's run with its RESULT named.

  The program is four segments: host operations, the first layer's region, host operations, the second layer's
  region. The buffer contents at each segment boundary form a fold from the launch memory; at the last boundary every
  unscoped buffer holds the fold's final contents. Reading the final state against that boundary gives the seven
  argument arrays as launched and, in the same way, the result buffer at the fold's contents for it — which the
  following modules compute.
-/
import proofs.«162521_j87814901334660_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the seven arguments as launched. -/
theorem run_named : θ_run defs (onTc (τ := τ) (main (F := F))) ⟨m, fun _ => 0, ρ⟩ (fun r => ∀ c : Dev nD,
      r.2.mem ((c.tc : Thread nD τ).loc main_v36) = W4 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v36 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.Run

end
-- ==== Proof.GinLayer.lean ====
/-
  One graph-isomorphism layer, entry by entry, on the extended reals.

  For node features x, summed neighbour messages msg (one row per node, 128 columns), a weight matrix W and a bias b,
  the layer's entry at node p and output column q is

      ( ∑ₖ ( x(p,k) + msg(p,k) scaled by the node's in-degree ) · W(k,q) ) + b(q).

  The scaling is spelt in two ways. One multiplies by a column d that already holds the reciprocal of the clamped
  in-degree (`entryMul`); the other divides by the clamped in-degree c itself, after multiplying the features by the
  word 1.0 (`entryDiv`). They agree as soon as c is not zero: m · (1 / c) = m / c off zero, and 1 · x = x, on every
  extended real — no finiteness is needed, since no sum is distributed over.
-/
import Idealize.ShloMosaic.PureOps.Ideal.Laws
import Idealize.ShloMosaic.Lib.ValueIdx

noncomputable section

namespace GinLayer

open Idealize.ShloMosaic Idealize.ShloMosaic.ValueIdx

/-- The word of 1.0 denotes the extended real 1. -/
theorem one_word : Ideal.ofBits .f32 0x3F800000#32 = 1 := by
  simp [Ideal.ofBits, Ideal.ieee, -EReal.coe_mul]; norm_num

/-- Off zero, multiplying by the reciprocal is dividing. -/
theorem mul_one_div (m c : EReal) (hc : c ≠ 0) : m * Ideal.div 1 c = Ideal.div m c := by
  rw [Ideal.div, Ideal.div, if_neg hc, if_neg hc, one_mul]

/-- A maximum with 1.0 is not zero. -/
theorem max_one_ne_zero (a : EReal) : max a (Ideal.ofBits .f32 0x3F800000#32) ≠ 0 := by
  rw [one_word]
  exact ne_of_gt (lt_of_lt_of_le zero_lt_one (le_max_right a 1))

/-- The layer's entry (p, q) with the scaling as a product by the column `d` of reciprocals; the bias is a one-row
    array. General in the number of rows `M`, so that it reads a block of rows and the whole array alike. -/
def entryMul {M : ℕ} (x msg : (⟨2, ![M, 128]⟩ : Shape).Idx → EReal) (d : (⟨2, ![M, 1]⟩ : Shape).Idx → EReal)
    (W : (⟨2, ![128, 128]⟩ : Shape).Idx → EReal) (b : (⟨2, ![1, 128]⟩ : Shape).Idx → EReal) (p : Fin M) (q : Fin 128) : EReal :=
  (∑ k : Fin 128, (x (ix2 p k) + msg (ix2 p k) * d (ix2 p (0 : Fin 1))) * W (ix2 k q)) + b (ix2 (0 : Fin 1) q)

/-- The layer's entry (p, q) with the scaling as a quotient by the clamped in-degree `c`, the features multiplied by
    the word 1.0; the bias is a vector. -/
def entryDiv {M : ℕ} (x msg : (⟨2, ![M, 128]⟩ : Shape).Idx → EReal) (c : (⟨1, ![M]⟩ : Shape).Idx → EReal)
    (W : (⟨2, ![128, 128]⟩ : Shape).Idx → EReal) (b : (⟨1, ![128]⟩ : Shape).Idx → EReal) (p : Fin M) (q : Fin 128) : EReal :=
  (∑ k : Fin 128, (Ideal.ofBits .f32 0x3F800000#32 * x (ix2 p k) + Ideal.div (msg (ix2 p k)) (c (ix1 p))) * W (ix2 k q))
    + b (ix1 q)

/-- The two spellings agree when the column holds the reciprocals of a nowhere-zero `c` and the one-row bias is the
    vector's row. -/
theorem entryMul_eq_entryDiv {M : ℕ} (x msg : (⟨2, ![M, 128]⟩ : Shape).Idx → EReal) (d : (⟨2, ![M, 1]⟩ : Shape).Idx → EReal)
    (c : (⟨1, ![M]⟩ : Shape).Idx → EReal) (W : (⟨2, ![128, 128]⟩ : Shape).Idx → EReal)
    (brow : (⟨2, ![1, 128]⟩ : Shape).Idx → EReal) (b : (⟨1, ![128]⟩ : Shape).Idx → EReal)
    (hd : ∀ p : Fin M, d (ix2 p (0 : Fin 1)) = Ideal.div (Ideal.ofBits .f32 0x3F800000#32) (c (ix1 p)))
    (hc : ∀ p : Fin M, c (ix1 p) ≠ 0) (hb : ∀ q : Fin 128, brow (ix2 (0 : Fin 1) q) = b (ix1 q)) (p : Fin M) (q : Fin 128) :
    entryMul x msg d W brow p q = entryDiv x msg c W b p q := by
  unfold entryMul entryDiv
  rw [hb q, hd p, one_word]
  simp only [mul_one_div _ _ (hc p), one_mul]

/-- The layer as a whole array, product spelling. -/
def layerMul {M : ℕ} (x msg : (⟨2, ![M, 128]⟩ : Shape).Idx → EReal) (d : (⟨2, ![M, 1]⟩ : Shape).Idx → EReal)
    (W : (⟨2, ![128, 128]⟩ : Shape).Idx → EReal) (b : (⟨2, ![1, 128]⟩ : Shape).Idx → EReal) :
    (⟨2, ![M, 128]⟩ : Shape).Idx → EReal := fun i => entryMul x msg d W b (i 0) (i 1)

/-- The layer followed by the clamp below at the zero word, product spelling. -/
def layerMulRelu {M : ℕ} (x msg : (⟨2, ![M, 128]⟩ : Shape).Idx → EReal) (d : (⟨2, ![M, 1]⟩ : Shape).Idx → EReal)
    (W : (⟨2, ![128, 128]⟩ : Shape).Idx → EReal) (b : (⟨2, ![1, 128]⟩ : Shape).Idx → EReal) :
    (⟨2, ![M, 128]⟩ : Shape).Idx → EReal :=
  fun i => max (entryMul x msg d W b (i 0) (i 1)) (Ideal.ofBits .f32 0x00000000#32)

/-- The layer as a whole array, quotient spelling. -/
def layerDiv {M : ℕ} (x msg : (⟨2, ![M, 128]⟩ : Shape).Idx → EReal) (c : (⟨1, ![M]⟩ : Shape).Idx → EReal)
    (W : (⟨2, ![128, 128]⟩ : Shape).Idx → EReal) (b : (⟨1, ![128]⟩ : Shape).Idx → EReal) :
    (⟨2, ![M, 128]⟩ : Shape).Idx → EReal := fun i => entryDiv x msg c W b (i 0) (i 1)

/-- The layer followed by the clamp below at the zero word, quotient spelling. -/
def layerDivRelu {M : ℕ} (x msg : (⟨2, ![M, 128]⟩ : Shape).Idx → EReal) (c : (⟨1, ![M]⟩ : Shape).Idx → EReal)
    (W : (⟨2, ![128, 128]⟩ : Shape).Idx → EReal) (b : (⟨1, ![128]⟩ : Shape).Idx → EReal) :
    (⟨2, ![M, 128]⟩ : Shape).Idx → EReal :=
  fun i => max (entryDiv x msg c W b (i 0) (i 1)) (Ideal.ofBits .f32 0x00000000#32)

section Arrays

variable {M : ℕ} (x msg : (⟨2, ![M, 128]⟩ : Shape).Idx → EReal) (d : (⟨2, ![M, 1]⟩ : Shape).Idx → EReal)
  (c : (⟨1, ![M]⟩ : Shape).Idx → EReal) (W : (⟨2, ![128, 128]⟩ : Shape).Idx → EReal)
  (brow : (⟨2, ![1, 128]⟩ : Shape).Idx → EReal) (b : (⟨1, ![128]⟩ : Shape).Idx → EReal)
  (hd : ∀ p : Fin M, d (ix2 p (0 : Fin 1)) = Ideal.div (Ideal.ofBits .f32 0x3F800000#32) (c (ix1 p)))
  (hc : ∀ p : Fin M, c (ix1 p) ≠ 0) (hb : ∀ q : Fin 128, brow (ix2 (0 : Fin 1) q) = b (ix1 q))

include hd hc hb

/-- The two spellings of the layer are one array. -/
theorem layerMul_eq_layerDiv : layerMul x msg d W brow = layerDiv x msg c W b :=
  funext fun i => entryMul_eq_entryDiv x msg d c W brow b hd hc hb (i 0) (i 1)

/-- The two spellings of the clamped layer are one array. -/
theorem layerMulRelu_eq_layerDivRelu : layerMulRelu x msg d W brow = layerDivRelu x msg c W b :=
  funext fun i => congrArg (max · (Ideal.ofBits .f32 0x00000000#32))
    (entryMul_eq_entryDiv x msg d c W brow b hd hc hb (i 0) (i 1))

end Arrays

end GinLayer

end
-- ==== Proof.LibPlainDot.lean ====
/-
  A plain matrix product read at an entry. For the dimension numbers of an [M, K] by [K, N] product (no batch axis,
  the left operand contracted on its last axis and the right on its first) the entry (p, q) of the product is
  ∑ₖ l(p, k) · r(k, q) over k : Fin K — for a tpu.matmul into the zero accumulator and for the host's dot_general alike,
  at the ideal values. General in the three extents and in the operands' formats; a printed record of these dimension
  numbers is DotDims.plain M K N up to the proof it carries, so it is passed with the equation (by rfl).
-/
import Idealize.ShloMosaic.PureOps.Ideal.Laws
import Idealize.ShloMosaic.Lib.ValueIdx

namespace Idealize.ShloMosaic.ValueIdx

/-- The left operand's row is the output's row, whatever the contraction index. -/
theorem plain_lhs_row {M K N : ℕ} (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column, whatever the contraction index. -/
theorem plain_rhs_col {M K N : ℕ} (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The left operand's index at output (p, q) and contraction coordinate k is (p, k). -/
theorem plain_lhsIdx {M K N : ℕ} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => exact plain_lhs_row (ix2 p q) _
  | ⟨1, _⟩ => exact ((DotDims.plain M K N).lhsIdx_val_of_single (cl := (1 : Fin 2)) rfl (ix2 p q) _).trans hk

/-- The right operand's index at output (p, q) and contraction coordinate k is (k, q). -/
theorem plain_rhsIdx {M K N : ℕ} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single (cr := (0 : Fin 2)) rfl (ix2 p q) _).trans hk
  | ⟨1, _⟩ => exact plain_rhs_col (ix2 p q) _

/-- The product's sum over the contraction index, re-indexed by the contracted coordinate. -/
theorem sum_plain {M K N : ℕ} (l : (⟨2, ![M, K]⟩ : Shape).Idx → EReal) (r : (⟨2, ![K, N]⟩ : Shape).Idx → EReal)
    (p : Fin M) (q : Fin N) :
    ∑ k : (DotDims.plain M K N).contr.Idx, l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  exact Finset.sum_congr rfl fun k _ => by rw [plain_lhsIdx, plain_rhsIdx]

/-- A tpu.matmul of these dimension numbers into the zero accumulator, at entry (p, q). -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  exact (Ideal.matmul_constant_zero_apply _ prec lhs rhs (ix2 p q)).trans (sum_plain lhs rhs p q)

/-- The host's dot_general of these dimension numbers, at entry (p, q). -/
theorem dotGeneral_plain_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  exact (Ideal.dotGeneral_apply _ prec sched lhs rhs (ix2 p q)).trans (sum_plain lhs rhs p q)

end Idealize.ShloMosaic.ValueIdx
-- ==== Proof.LibColumns.lean ====
/-
  A column kept as a unit last axis, read at an index: the two layout steps of a `keepdims` reduction — a vector
  `[a]` cast to a column `[a, 1]`, and a column `[a, 1]` broadcast along its unit axis to `[a, b]`. General in the
  extents and in the element type; they complement the library's leading-unit-axis casts and its row broadcast.
-/
import Idealize.ShloMosaic.Lib.Pipeline.Value
import Idealize.ShloMosaic.Lib.ValueIdx

namespace Idealize.ShloMosaic.ValueIdx

variable {α : Type}

/-- An `[a]` array cast to the column `[a, 1]` reads, at `(i, u)`, the operand at `i`, whatever the unit coordinate
    `u`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.ValueIdx
-- ==== Proof.KernelBody.lean ====
/-
  What each kernel body stores, read at an entry, on the extended reals.

  Both bodies take a block of 5000 rows of the features `x` and of the summed messages `msg`, the block's column `d` of
  reciprocal in-degrees, the whole weight matrix `W` and the one-row bias `b`, and store

      first layer :  max( (x + msg · d) · W + b , 0 )          second layer :  (x + msg · d) · W + b

  where `d` is spread along the 128 columns, `b` along the 5000 rows, and the product with `W` is the matrix product
  into a zero accumulator. The narrowing of the product's operands to 16 bits is the identity here. At row p and
  column q the stored value is therefore `GinLayer.entryMul` of the five blocks (clamped below at the zero word for
  the first layer).
-/
import proofs.«162521_j87814901334660_2_alg».proof.Proof.Gen.KernelIdeal.Skeleton
import proofs.«162521_j87814901334660_2_alg».proof.Proof.GinLayer
import proofs.«162521_j87814901334660_2_alg».proof.Proof.LibPlainDot
import proofs.«162521_j87814901334660_2_alg».proof.Proof.LibColumns
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx Idealize.ShloMosaic.Pipeline GinLayer

/-- The first layer's stored block at (p, q). -/
theorem pay0_apply (x0 x1 : Vec Ideal S5000x128 .f32) (x2 : Vec Ideal S5000x1 .f32) (x3 : Vec Ideal S128x128 .f32)
    (x4 : Vec Ideal S1x128 .f32) (p : Fin 5000) (q : Fin 128) :
    k0_pay1 (F := Ideal) x0 x1 x2 x3 x4 (ix2 p q) = max (entryMul x0 x1 x2 x3 x4 p q) (Ideal.ofBits .f32 0x00000000#32) := by
  unfold k0_pay1
  simp only [shapeCast_self, matmul]
  rw [maximumf_apply, addf_apply, broadcast_apply, broadcastTo_1b_ab_apply,
    matmul_plain_zero_apply dot_S5000x128_S128x128_S5000x128_1_0_0_1_n_n rfl]
  simp only [truncf_apply, addf_apply, mulf_apply, broadcastTo_a1_ab_apply]
  rfl

/-- The second layer's stored block at (p, q). -/
theorem pay1_apply (x0 x1 : Vec Ideal S5000x128 .f32) (x2 : Vec Ideal S5000x1 .f32) (x3 : Vec Ideal S128x128 .f32)
    (x4 : Vec Ideal S1x128 .f32) (p : Fin 5000) (q : Fin 128) :
    k1_pay1 (F := Ideal) x0 x1 x2 x3 x4 (ix2 p q) = entryMul x0 x1 x2 x3 x4 p q := by
  unfold k1_pay1
  simp only [shapeCast_self, matmul]
  rw [addf_apply, broadcastTo_1b_ab_apply,
    matmul_plain_zero_apply dot_S5000x128_S128x128_S5000x128_1_0_0_1_n_n rfl]
  simp only [truncf_apply, addf_apply, mulf_apply, broadcastTo_a1_ab_apply]
  rfl

end Cert.KernelIdeal.Body

end
-- ==== Proof.KernelArray.lean ====
/-
  From the blocks a grid point writes back to the whole output array, for each of the two layers' kernels.

  A grid point t (of 20) works on rows 5000·t … 5000·t + 4999: its blocks of the features, of the summed messages and
  of the reciprocal column are those rows of their arrays, while the weight matrix and the one-row bias are whole at
  every point. What the body stores at (p, q) of its block (`Body.pay0_apply`, `Body.pay1_apply`) is therefore the
  layer's entry at row 5000·t + p of the WHOLE arrays — the block of one array-level function (`GinLayer.layerMulRelu`,
  `GinLayer.layerMul`). The twenty row blocks tile the 100000 rows, so after the run the output array is that function
  of the arrays the region found. Stated for any contents `V` the region is entered from.
-/
import proofs.«162521_j87814901334660_2_alg».proof.Proof.Gen.KernelIdeal.Frame
import proofs.«162521_j87814901334660_2_alg».proof.Proof.KernelBody

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL.Sem Idealize.ShloMosaic.Pipeline GinLayer

variable (V : (c : Dev nD) → (b : Ref sig .tc) → Buf (Elt Ideal) ((c : Thread nD τ).loc b))

theorem origin_zero : (![0, 0] : Fin 2 → Nat) = fun _ => 0 := funext fun a => by fin_cases a <;> rfl

/-! ## The first layer's kernel -/

/-- The index maps over the grid: the three row-blocked inputs move with the output's row block and sit at column
    block 0; the weight matrix and the bias stay at block (0, 0). -/
theorem index_maps0 : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = win0_5.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 :=
  (by decide +kernel : ∀ t : Fin grid0.N, _)

/-- Every row block is some point's. -/
theorem row_block_onto0 : ∀ r : Fin 20, ∃ t : Fin cfg0.N, win0_5.index t = ![r.val, 0] :=
  (by decide +kernel : ∀ r : Fin 20, ∃ t : Fin grid0.N, win0_5.index t = ![r.val, 0])

/-- What point `t` writes back is block `t` of the clamped layer of the arrays the region found. -/
theorem flushed0 (c : Dev nD) (t : Fin cfg0.N) :
    (dat0 V c).flushed 5 t = ((cfg0.win 5).blk t).view.read (Elt Ideal)
      (layerMulRelu (V c main_arg0) (V c main_v20) (V c main_v8) (V c main_arg3) (V c main_v21)) := by
  show (cfg0.win 5).cut (grid0.coords t) ((dat0 V c).after 5 t) = _
  rw [after0_5]
  unfold out0_5
  rw [View.canon_unit_zero origin_zero]
  simp only [View.ld_unit_zero (S := S5000x128) origin_zero, View.ld_unit_zero (S := S5000x1) origin_zero,
    View.ld_unit_zero (S := S128x128) origin_zero, View.ld_unit_zero (S := S1x128) origin_zero]
  obtain ⟨e00, e01, e10, e11, e20, e21, e30, e31, e40, e41, e51⟩ := index_maps0 t
  funext j
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (iblk0 V c 3 t) (iblk0 V c 4 t) (ix2 p q)
    = layerMulRelu (V c main_arg0) (V c main_v20) (V c main_v8) (V c main_arg3) (V c main_v21)
        (((cfg0.win 5).blk t).view.emb (ix2 p q))
  refine (Body.pay0_apply (iblk0 V c 0 t) (iblk0 V c 1 t) (iblk0 V c 2 t) (iblk0 V c 3 t) (iblk0 V c 4 t) p q).trans ?_
  unfold layerMulRelu entryMul
  have hp : p.val < 5000 := p.isLt
  have hq : q.val < 128 := q.isLt
  have h0 : ∀ k : Fin 128, iblk0 V c 0 t (ix2 p k)
      = V c main_arg0 (ix2 ((((cfg0.win 5).blk t).view.emb (ix2 p q)) 0) k) := fun k =>
    congrArg (V c main_arg0) (funext fun a => Fin.ext (by
      match a with
      | ⟨0, _⟩ => show win0_0.index t (0 : Fin 2) * 5000 + 1 * p.val = win0_5.index t (0 : Fin 2) * 5000 + 1 * p.val; omega
      | ⟨1, _⟩ => show win0_0.index t (1 : Fin 2) * 128 + 1 * k.val = k.val; omega))
  have h1 : ∀ k : Fin 128, iblk0 V c 1 t (ix2 p k)
      = V c main_v20 (ix2 ((((cfg0.win 5).blk t).view.emb (ix2 p q)) 0) k) := fun k =>
    congrArg (V c main_v20) (funext fun a => Fin.ext (by
      match a with
      | ⟨0, _⟩ => show win0_1.index t (0 : Fin 2) * 5000 + 1 * p.val = win0_5.index t (0 : Fin 2) * 5000 + 1 * p.val; omega
      | ⟨1, _⟩ => show win0_1.index t (1 : Fin 2) * 128 + 1 * k.val = k.val; omega))
  have h2 : iblk0 V c 2 t (ix2 p (0 : Fin 1))
      = V c main_v8 (ix2 ((((cfg0.win 5).blk t).view.emb (ix2 p q)) 0) (0 : Fin 1)) :=
    congrArg (V c main_v8) (funext fun a => Fin.ext (by
      match a with
      | ⟨0, _⟩ => show win0_2.index t (0 : Fin 2) * 5000 + 1 * p.val = win0_5.index t (0 : Fin 2) * 5000 + 1 * p.val; omega
      | ⟨1, _⟩ => show win0_2.index t (1 : Fin 2) * 1 + 1 * 0 = 0; omega))
  have h3 : ∀ k : Fin 128, iblk0 V c 3 t (ix2 k q)
      = V c main_arg3 (ix2 k ((((cfg0.win 5).blk t).view.emb (ix2 p q)) 1)) := fun k =>
    congrArg (V c main_arg3) (funext fun a => Fin.ext (by
      match a with
      | ⟨0, _⟩ => show win0_3.index t (0 : Fin 2) * 128 + 1 * k.val = k.val; omega
      | ⟨1, _⟩ => show win0_3.index t (1 : Fin 2) * 128 + 1 * q.val = win0_5.index t (1 : Fin 2) * 128 + 1 * q.val; omega))
  have h4 : iblk0 V c 4 t (ix2 (0 : Fin 1) q)
      = V c main_v21 (ix2 (0 : Fin 1) ((((cfg0.win 5).blk t).view.emb (ix2 p q)) 1)) :=
    congrArg (V c main_v21) (funext fun a => Fin.ext (by
      match a with
      | ⟨0, _⟩ => show win0_4.index t (0 : Fin 2) * 1 + 1 * 0 = 0; omega
      | ⟨1, _⟩ => show win0_4.index t (1 : Fin 2) * 128 + 1 * q.val = win0_5.index t (1 : Fin 2) * 128 + 1 * q.val; omega))
  refine congrArg (max · (Ideal.ofBits .f32 0x00000000#32)) (congrArg₂ (· + ·) (Finset.sum_congr rfl fun k _ => ?_) h4)
  rw [h0 k, h1 k, h2, h3 k]

/-- An index of the array is in point `t`'s block iff each coordinate is in the block's range on its axis. -/
theorem mem_blk0 (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v22).slice (win0_5.rect t)).set ↔ _
  rw [View.set_slice_whole, Rect.mem_set_unit]
  exact Iff.rfl

/-- The row blocks tile the array: row r is in the block of point r / 5000. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := row_block_onto0 ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The first layer's output array after its region: the clamped layer of the arrays the region found. -/
theorem final0 (c : Dev nD) : (dat0 V c).arrAt 5 cfg0.N
    = layerMulRelu (V c main_arg0) (V c main_v20) (V c main_v8) (V c main_arg3) (V c main_v21) :=
  (dat0 V c).arrAt_eq_of_cover 5 _ (fun t _ => flushed0 V c t) cover0

/-! ## The second layer's kernel -/

/-- The index maps over the grid: the three row-blocked inputs move with the output's row block and sit at column
    block 0; the weight matrix and the bias stay at block (0, 0). -/
theorem index_maps1 : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = win1_5.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 :=
  (by decide +kernel : ∀ t : Fin grid1.N, _)

/-- Every row block is some point's. -/
theorem row_block_onto1 : ∀ r : Fin 20, ∃ t : Fin cfg1.N, win1_5.index t = ![r.val, 0] :=
  (by decide +kernel : ∀ r : Fin 20, ∃ t : Fin grid1.N, win1_5.index t = ![r.val, 0])

/-- What point `t` writes back is block `t` of the layer of the arrays the region found. -/
theorem flushed1 (c : Dev nD) (t : Fin cfg1.N) :
    (dat1 V c).flushed 5 t = ((cfg1.win 5).blk t).view.read (Elt Ideal)
      (layerMul (V c main_v22) (V c main_v34) (V c main_v8) (V c main_arg5) (V c main_v35)) := by
  show (cfg1.win 5).cut (grid1.coords t) ((dat1 V c).after 5 t) = _
  rw [after1_5]
  unfold out1_5
  rw [View.canon_unit_zero origin_zero]
  simp only [View.ld_unit_zero (S := S5000x128) origin_zero, View.ld_unit_zero (S := S5000x1) origin_zero,
    View.ld_unit_zero (S := S128x128) origin_zero, View.ld_unit_zero (S := S1x128) origin_zero]
  obtain ⟨e00, e01, e10, e11, e20, e21, e30, e31, e40, e41, e51⟩ := index_maps1 t
  funext j
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (iblk1 V c 3 t) (iblk1 V c 4 t) (ix2 p q)
    = layerMul (V c main_v22) (V c main_v34) (V c main_v8) (V c main_arg5) (V c main_v35)
        (((cfg1.win 5).blk t).view.emb (ix2 p q))
  refine (Body.pay1_apply (iblk1 V c 0 t) (iblk1 V c 1 t) (iblk1 V c 2 t) (iblk1 V c 3 t) (iblk1 V c 4 t) p q).trans ?_
  unfold layerMul entryMul
  have hp : p.val < 5000 := p.isLt
  have hq : q.val < 128 := q.isLt
  have h0 : ∀ k : Fin 128, iblk1 V c 0 t (ix2 p k)
      = V c main_v22 (ix2 ((((cfg1.win 5).blk t).view.emb (ix2 p q)) 0) k) := fun k =>
    congrArg (V c main_v22) (funext fun a => Fin.ext (by
      match a with
      | ⟨0, _⟩ => show win1_0.index t (0 : Fin 2) * 5000 + 1 * p.val = win1_5.index t (0 : Fin 2) * 5000 + 1 * p.val; omega
      | ⟨1, _⟩ => show win1_0.index t (1 : Fin 2) * 128 + 1 * k.val = k.val; omega))
  have h1 : ∀ k : Fin 128, iblk1 V c 1 t (ix2 p k)
      = V c main_v34 (ix2 ((((cfg1.win 5).blk t).view.emb (ix2 p q)) 0) k) := fun k =>
    congrArg (V c main_v34) (funext fun a => Fin.ext (by
      match a with
      | ⟨0, _⟩ => show win1_1.index t (0 : Fin 2) * 5000 + 1 * p.val = win1_5.index t (0 : Fin 2) * 5000 + 1 * p.val; omega
      | ⟨1, _⟩ => show win1_1.index t (1 : Fin 2) * 128 + 1 * k.val = k.val; omega))
  have h2 : iblk1 V c 2 t (ix2 p (0 : Fin 1))
      = V c main_v8 (ix2 ((((cfg1.win 5).blk t).view.emb (ix2 p q)) 0) (0 : Fin 1)) :=
    congrArg (V c main_v8) (funext fun a => Fin.ext (by
      match a with
      | ⟨0, _⟩ => show win1_2.index t (0 : Fin 2) * 5000 + 1 * p.val = win1_5.index t (0 : Fin 2) * 5000 + 1 * p.val; omega
      | ⟨1, _⟩ => show win1_2.index t (1 : Fin 2) * 1 + 1 * 0 = 0; omega))
  have h3 : ∀ k : Fin 128, iblk1 V c 3 t (ix2 k q)
      = V c main_arg5 (ix2 k ((((cfg1.win 5).blk t).view.emb (ix2 p q)) 1)) := fun k =>
    congrArg (V c main_arg5) (funext fun a => Fin.ext (by
      match a with
      | ⟨0, _⟩ => show win1_3.index t (0 : Fin 2) * 128 + 1 * k.val = k.val; omega
      | ⟨1, _⟩ => show win1_3.index t (1 : Fin 2) * 128 + 1 * q.val = win1_5.index t (1 : Fin 2) * 128 + 1 * q.val; omega))
  have h4 : iblk1 V c 4 t (ix2 (0 : Fin 1) q)
      = V c main_v35 (ix2 (0 : Fin 1) ((((cfg1.win 5).blk t).view.emb (ix2 p q)) 1)) :=
    congrArg (V c main_v35) (funext fun a => Fin.ext (by
      match a with
      | ⟨0, _⟩ => show win1_4.index t (0 : Fin 2) * 1 + 1 * 0 = 0; omega
      | ⟨1, _⟩ => show win1_4.index t (1 : Fin 2) * 128 + 1 * q.val = win1_5.index t (1 : Fin 2) * 128 + 1 * q.val; omega))
  refine congrArg₂ (· + ·) (Finset.sum_congr rfl fun k _ => ?_) h4
  rw [h0 k, h1 k, h2, h3 k]

/-- An index of the array is in point `t`'s block iff each coordinate is in the block's range on its axis. -/
theorem mem_blk1 (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v36).slice (win1_5.rect t)).set ↔ _
  rw [View.set_slice_whole, Rect.mem_set_unit]
  exact Iff.rfl

/-- The row blocks tile the array: row r is in the block of point r / 5000. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := row_block_onto1 ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The second layer's output array after its region: the layer of the arrays the region found. -/
theorem final1 (c : Dev nD) : (dat1 V c).arrAt 5 cfg1.N
    = layerMul (V c main_v22) (V c main_v34) (V c main_v8) (V c main_arg5) (V c main_v35) :=
  (dat1 V c).arrAt_eq_of_cover 5 _ (fun t _ => flushed1 V c t) cover1

end Cert.KernelIdeal.Blocks

end
-- ==== Proof.KernelValue.lean ====
/-
  What the idealized kernel program's result buffer holds at the last segment boundary, as one term of the seven
  launch arrays.

  The host stretches compute, from the edge list (src, dst): the clamped in-degree of every node (a sum of ones
  scattered by dst, then the maximum with 1.0), its reciprocal as a column, and for a feature array its summed
  messages (rows gathered by src — after the wrap of negative indices —, scattered and added by dst); they also turn
  each bias vector into a one-row array. Region 1 turns (x, summed messages of x, the column, W1, b1) into the first
  layer's clamped output h; the second stretch forms the summed messages of h; region 2 turns (h, those, the column,
  W2, b2) into the result. Each stretch is read over an arbitrary starting valuation, so the fold through the four
  segments is walked without ever being unfolded.
-/
import proofs.«162521_j87814901334660_2_alg».proof.Proof.Gen.KernelIdeal.Frame
import proofs.«162521_j87814901334660_2_alg».proof.Proof.KernelArray

set_option maxRecDepth 16384

noncomputable section

namespace Cert.KernelIdeal.HostSide

open Cert.KernelIdeal Cert.KernelIdeal.Gen Idealize.ShloMosaic Idealize.ShloMosaic.TcCoe Idealize.SL.Sem
open Idealize.ShloMosaic.StableHlo GinLayer

/-! ## The host stretches' functions -/

/-- The clamped in-degree of every node: ones scattered and added by `dst` into zeros, then the maximum with 1.0. -/
def clampDeg (dst : (⟨S1600000, .i32⟩ : BufTy).Contents (Elt Ideal)) : (⟨S100000, .f32⟩ : BufTy).Contents (Elt Ideal) :=
  maximumf (F := Ideal)
    (Host.scatterAdd (F := Ideal) scatter_S100000_S1600000x1_S1600000_n_0_0_1
      (broadcastInDim S100000 ![] bcast_S_S100000 (constant (F := Ideal) S_ .f32 0x00000000#32))
      (broadcastInDim S1600000x1 ![0] bcast_S1600000_S1600000x1_0 dst)
      (broadcastInDim S1600000 ![] bcast_S_S1600000 (constant (F := Ideal) S_ .f32 0x3F800000#32)))
    (broadcastInDim S100000 ![] bcast_S_S100000 (constant (F := Ideal) S_ .f32 0x3F800000#32))

/-- The reciprocal of the clamped in-degree, as a column. -/
def recipCol (dst : (⟨S1600000, .i32⟩ : BufTy).Contents (Elt Ideal)) : (⟨S100000x1, .f32⟩ : BufTy).Contents (Elt Ideal) :=
  shapeCast S100000x1
    (Host.divf (F := Ideal) (broadcastInDim S100000 ![] bcast_S_S100000 (constant (F := Ideal) S_ .f32 0x3F800000#32)) (clampDeg dst))
    shapeCasts_S100000_S100000x1

/-- The summed messages of a feature array: its rows gathered by `src` (a negative index wrapped by the number of
    nodes), passed through the 16-bit format and back, scattered and added by `dst` into zeros. -/
def summed (x : (⟨S100000x128, .f32⟩ : BufTy).Contents (Elt Ideal)) (src dst : (⟨S1600000, .i32⟩ : BufTy).Contents (Elt Ideal)) :
    (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (extf (F := Ideal) .f32
      (Host.gather gather_S100000x128_S1600000x1_S1600000x128_1_0_n_n_0_1_1128
        (truncf (F := Ideal) .bf16 x bitsLt_bf16_f32)
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32)))
            src)))
      bitsLt_bf16_f32)

/-- A bias vector as a one-row array. -/
def biasRow (b : (⟨S128, .f32⟩ : BufTy).Contents (Elt Ideal)) : (⟨S1x128, .f32⟩ : BufTy).Contents (Elt Ideal) :=
  shapeCast S1x128 b shapeCasts_S128_S1x128

/-- The program's result as a term of its seven arguments. -/
def result (x : (⟨S100000x128, .f32⟩ : BufTy).Contents (Elt Ideal)) (src dst : (⟨S1600000, .i32⟩ : BufTy).Contents (Elt Ideal))
    (W1 : (⟨S128x128, .f32⟩ : BufTy).Contents (Elt Ideal)) (b1 : (⟨S128, .f32⟩ : BufTy).Contents (Elt Ideal))
    (W2 : (⟨S128x128, .f32⟩ : BufTy).Contents (Elt Ideal)) (b2 : (⟨S128, .f32⟩ : BufTy).Contents (Elt Ideal)) :
    (⟨S100000x128, .f32⟩ : BufTy).Contents (Elt Ideal) :=
  layerMul (layerMulRelu x (summed x src dst) (recipCol dst) W1 (biasRow b1))
    (summed (layerMulRelu x (summed x src dst) (recipCol dst) W1 (biasRow b1)) src dst) (recipCol dst) W2 (biasRow b2)

/-! ## Each stretch over an arbitrary starting valuation -/

section Stretches

variable (W : Valuation τ sig (Elt Ideal))

theorem first_col : StableHlo.after (hostOps0 (F := Ideal)) W (Proc.devRef .tc main_v8) = recipCol (W (Proc.devRef .tc main_arg2)) := by
  after_results; rfl
set_option maxHeartbeats 1000000 in
theorem first_summed : StableHlo.after (hostOps0 (F := Ideal)) W (Proc.devRef .tc main_v20)
    = summed (W (Proc.devRef .tc main_arg0)) (W (Proc.devRef .tc main_arg1)) (W (Proc.devRef .tc main_arg2)) := by
  after_results_simp; rfl
theorem first_bias : StableHlo.after (hostOps0 (F := Ideal)) W (Proc.devRef .tc main_v21) = biasRow (W (Proc.devRef .tc main_arg4)) := by
  after_results; rfl
theorem first_arg0 : StableHlo.after (hostOps0 (F := Ideal)) W (Proc.devRef .tc main_arg0) = W (Proc.devRef .tc main_arg0) := by
  after_results
theorem first_arg1 : StableHlo.after (hostOps0 (F := Ideal)) W (Proc.devRef .tc main_arg1) = W (Proc.devRef .tc main_arg1) := by
  after_results
theorem first_arg2 : StableHlo.after (hostOps0 (F := Ideal)) W (Proc.devRef .tc main_arg2) = W (Proc.devRef .tc main_arg2) := by
  after_results
theorem first_arg3 : StableHlo.after (hostOps0 (F := Ideal)) W (Proc.devRef .tc main_arg3) = W (Proc.devRef .tc main_arg3) := by
  after_results
theorem first_arg5 : StableHlo.after (hostOps0 (F := Ideal)) W (Proc.devRef .tc main_arg5) = W (Proc.devRef .tc main_arg5) := by
  after_results
theorem first_arg6 : StableHlo.after (hostOps0 (F := Ideal)) W (Proc.devRef .tc main_arg6) = W (Proc.devRef .tc main_arg6) := by
  after_results

theorem second_summed : StableHlo.after (hostOps1 (F := Ideal)) W (Proc.devRef .tc main_v34)
    = summed (W (Proc.devRef .tc main_v22)) (W (Proc.devRef .tc main_arg1)) (W (Proc.devRef .tc main_arg2)) := by
  after_results; rfl
theorem second_bias : StableHlo.after (hostOps1 (F := Ideal)) W (Proc.devRef .tc main_v35) = biasRow (W (Proc.devRef .tc main_arg6)) := by
  after_results; rfl
theorem second_h : StableHlo.after (hostOps1 (F := Ideal)) W (Proc.devRef .tc main_v22) = W (Proc.devRef .tc main_v22) := by
  after_results
theorem second_col : StableHlo.after (hostOps1 (F := Ideal)) W (Proc.devRef .tc main_v8) = W (Proc.devRef .tc main_v8) := by
  after_results
theorem second_arg5 : StableHlo.after (hostOps1 (F := Ideal)) W (Proc.devRef .tc main_arg5) = W (Proc.devRef .tc main_arg5) := by
  after_results

end Stretches

/-! ## The fold through the four segments, from the result back to the launch memory -/

section Fold

variable (m : (ℓ : Loc nD τ sig) → Buf (Elt Ideal) ℓ) (ρ : Dev nD → PrngReg) (c : Dev nD)

/-- A buffer that is no window array of the first region holds, at that region's exit, what the first stretch left. -/
theorem exit0_of_ne (b : Ref sig .tc) (hb : ∀ w, Pipeline.arrRef spec0 w ≠ b) :
    W2 m ρ c (Proc.devRef .tc b) = StableHlo.after (hostOps0 (F := Ideal)) (W0 m ρ c) (Proc.devRef .tc b) :=
  W2_of_ne m ρ c b hb

/-- An input window's array of the first region holds, at that region's exit, what the first stretch left. -/
theorem exit0_input (w : Fin cfg0.W) (hw : (cfg0.win w).isOut = false) :
    W2 m ρ c (Proc.devRef .tc (Pipeline.arrRef spec0 w))
      = StableHlo.after (hostOps0 (F := Ideal)) (W0 m ρ c) (Proc.devRef .tc (Pipeline.arrRef spec0 w)) :=
  (W2_arr m ρ c w).trans (((dat0 (V1 m ρ) c).arrAt_in w hw _).trans (A_eq0 (V1 m ρ) c w))

/-- At the first region's exit its output array is the first layer's clamped result of the launch arrays. -/
theorem exit0_h : W2 m ρ c (Proc.devRef .tc main_v22)
    = layerMulRelu (m ((c : Thread nD τ).loc main_arg0))
        (summed (m ((c : Thread nD τ).loc main_arg0)) (m ((c : Thread nD τ).loc main_arg1)) (m ((c : Thread nD τ).loc main_arg2)))
        (recipCol (m ((c : Thread nD τ).loc main_arg2))) (m ((c : Thread nD τ).loc main_arg3))
        (biasRow (m ((c : Thread nD τ).loc main_arg4))) := by
  have a0 : V1 m ρ c main_arg0 = m ((c : Thread nD τ).loc main_arg0) := first_arg0 (W0 m ρ c)
  have a20 : V1 m ρ c main_v20 = summed (m ((c : Thread nD τ).loc main_arg0)) (m ((c : Thread nD τ).loc main_arg1))
      (m ((c : Thread nD τ).loc main_arg2)) := first_summed (W0 m ρ c)
  have a8 : V1 m ρ c main_v8 = recipCol (m ((c : Thread nD τ).loc main_arg2)) := first_col (W0 m ρ c)
  have a3 : V1 m ρ c main_arg3 = m ((c : Thread nD τ).loc main_arg3) := first_arg3 (W0 m ρ c)
  have a21 : V1 m ρ c main_v21 = biasRow (m ((c : Thread nD τ).loc main_arg4)) := first_bias (W0 m ρ c)
  refine (W2_arr m ρ c 5).trans ((Blocks.final0 (V1 m ρ) c).trans ?_)
  rw [a0, a20, a8, a3, a21]

theorem exit0_arg1 : W2 m ρ c (Proc.devRef .tc main_arg1) = m ((c : Thread nD τ).loc main_arg1) :=
  (exit0_of_ne m ρ c main_arg1 (by decide)).trans (first_arg1 (W0 m ρ c))
theorem exit0_arg2 : W2 m ρ c (Proc.devRef .tc main_arg2) = m ((c : Thread nD τ).loc main_arg2) :=
  (exit0_of_ne m ρ c main_arg2 (by decide)).trans (first_arg2 (W0 m ρ c))
theorem exit0_arg5 : W2 m ρ c (Proc.devRef .tc main_arg5) = m ((c : Thread nD τ).loc main_arg5) :=
  (exit0_of_ne m ρ c main_arg5 (by decide)).trans (first_arg5 (W0 m ρ c))
theorem exit0_arg6 : W2 m ρ c (Proc.devRef .tc main_arg6) = m ((c : Thread nD τ).loc main_arg6) :=
  (exit0_of_ne m ρ c main_arg6 (by decide)).trans (first_arg6 (W0 m ρ c))
/-- The reciprocal column is an input window's array of the first region: it leaves that region as it entered. -/
theorem exit0_col : W2 m ρ c (Proc.devRef .tc main_v8) = recipCol (m ((c : Thread nD τ).loc main_arg2)) :=
  (exit0_input m ρ c 2 rfl).trans (first_col (W0 m ρ c))

/-- At the last boundary the result buffer holds `result` of the seven launch arrays. -/
theorem final_value : W4 m ρ c (Proc.devRef .tc main_v36)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  have b22 : V3 m ρ c main_v22 = W2 m ρ c (Proc.devRef .tc main_v22) := second_h (W2 m ρ c)
  have b34 : V3 m ρ c main_v34 = summed (W2 m ρ c (Proc.devRef .tc main_v22)) (W2 m ρ c (Proc.devRef .tc main_arg1))
      (W2 m ρ c (Proc.devRef .tc main_arg2)) := second_summed (W2 m ρ c)
  have b8 : V3 m ρ c main_v8 = W2 m ρ c (Proc.devRef .tc main_v8) := second_col (W2 m ρ c)
  have b5 : V3 m ρ c main_arg5 = W2 m ρ c (Proc.devRef .tc main_arg5) := second_arg5 (W2 m ρ c)
  have b35 : V3 m ρ c main_v35 = biasRow (W2 m ρ c (Proc.devRef .tc main_arg6)) := second_bias (W2 m ρ c)
  refine (W4_arr m ρ c 5).trans ((Blocks.final1 (V3 m ρ) c).trans ?_)
  rw [b22, b34, b8, b5, b35, exit0_h, exit0_arg1, exit0_arg2, exit0_arg5, exit0_arg6, exit0_col]
  unfold result
  rfl

end Fold

end Cert.KernelIdeal.HostSide

end
-- ==== Proof.RefLayers.lean ====
/-
  The reference's two layers, read entry by entry on the extended reals.

  The reference computes, for each layer, the features times the word 1.0 plus the summed messages divided by the
  clamped in-degree (spread from a vector to a column to all 128 columns), multiplies by the weight matrix on the
  host, and adds the bias (spread from a vector to one row to all rows); the first layer is then clamped below at
  zero. Entry (p, q) of each is `GinLayer.entryDiv` of the layer's inputs. The gather and the scatter that form
  the summed messages, and the scatter that counts in-degrees, are left as they are: both programs apply the same
  ones to the same operands.
-/
import proofs.«162521_j87814901334660_2_alg».proof.Proof.Gen.ReferenceIdeal.Read
import proofs.«162521_j87814901334660_2_alg».proof.Proof.GinLayer

noncomputable section

namespace Cert.ReferenceIdeal.Layers

open Cert.ReferenceIdeal Cert.ReferenceIdeal.Gen Cert.ReferenceIdeal.Read Idealize.ShloMosaic Idealize.ShloMosaic.ValueIdx GinLayer

variable (x0 : (⟨S100000x128, .f32⟩ : BufTy).Contents (Elt Ideal)) (x1 x2 : (⟨S1600000, .i32⟩ : BufTy).Contents (Elt Ideal))
  (x3 : (⟨S128x128, .f32⟩ : BufTy).Contents (Elt Ideal)) (x4 : (⟨S128, .f32⟩ : BufTy).Contents (Elt Ideal))
  (x5 : (⟨S128x128, .f32⟩ : BufTy).Contents (Elt Ideal)) (x6 : (⟨S128, .f32⟩ : BufTy).Contents (Elt Ideal))

/-! ## Where each stage reads its operand, at the output entry (p, q) and contraction index k -/

theorem lhs_at (p : Fin 100000) (q k : Fin 128) : lidx_main_v22 (ix2 p q) k = ix2 p k :=
  funext fun a => Fin.ext (by match a with | ⟨0, _⟩ => rfl | ⟨1, _⟩ => rfl)
theorem rhs_at (p : Fin 100000) (q k : Fin 128) : ridx_main_v22 (ix2 p q) k = ix2 k q :=
  funext fun a => Fin.ext (by match a with | ⟨0, _⟩ => rfl | ⟨1, _⟩ => rfl)
theorem deg_at (p : Fin 100000) (k : Fin 128) : idx_main_v18 (idx_main_v19 (ix2 p k)) = ix1 p :=
  funext fun a => Fin.ext (by match a with | ⟨0, _⟩ => rfl)
theorem bias_at (p : Fin 100000) (q : Fin 128) : idx_main_v23 (idx_main_v24 (ix2 p q)) = ix1 q :=
  funext fun a => Fin.ext (by match a with | ⟨0, _⟩ => rfl)

theorem lhs_at' (p : Fin 100000) (q k : Fin 128) : lidx_main_v49 (ix2 p q) k = ix2 p k :=
  funext fun a => Fin.ext (by match a with | ⟨0, _⟩ => rfl | ⟨1, _⟩ => rfl)
theorem rhs_at' (p : Fin 100000) (q k : Fin 128) : ridx_main_v49 (ix2 p q) k = ix2 k q :=
  funext fun a => Fin.ext (by match a with | ⟨0, _⟩ => rfl | ⟨1, _⟩ => rfl)
theorem deg_at' (p : Fin 100000) (k : Fin 128) : idx_main_v45 (idx_main_v46 (ix2 p k)) = ix1 p :=
  funext fun a => Fin.ext (by match a with | ⟨0, _⟩ => rfl)
theorem bias_at' (p : Fin 100000) (q : Fin 128) : idx_main_v50 (idx_main_v51 (ix2 p q)) = ix1 q :=
  funext fun a => Fin.ext (by match a with | ⟨0, _⟩ => rfl)

/-! ## The first layer -/

/-- The matrix product's left operand at (p, k): the features times the word 1.0 plus the summed messages over the
    clamped in-degree of node p. -/
theorem combine_at (p : Fin 100000) (k : Fin 128) : val_main_v21 (F := Ideal) x0 x1 x2 (ix2 p k)
    = Ideal.ofBits .f32 0x3F800000#32 * x0 (ix2 p k)
      + Ideal.div (val_main_v11 (F := Ideal) x0 x1 x2 (ix2 p k)) (val_main_v17 (F := Ideal) x2 (ix1 p)) := by
  rw [val_main_v21_apply, val_main_v20_apply, val_main_v1_apply, val_main_v0_apply, val_main_cst_apply,
    val_main_v19_apply, val_main_v18_apply, deg_at]
  rfl

/-- The layer before its clamp, at (p, q). -/
theorem linear_at (p : Fin 100000) (q : Fin 128) : val_main_v25 (F := Ideal) x0 x1 x2 x3 x4 (ix2 p q)
    = entryDiv x0 (val_main_v11 (F := Ideal) x0 x1 x2) (val_main_v17 (F := Ideal) x2) x3 x4 p q := by
  rw [val_main_v25_apply, val_main_v22_apply, val_main_v24_apply, val_main_v23_apply, bias_at, Ideal.addf_def]
  unfold entryDiv
  refine congrArg₂ (· + ·) (Finset.sum_congr rfl fun k _ => ?_) rfl
  rw [lhs_at, rhs_at, combine_at]

/-- The first layer with its clamp: the quotient spelling over the features, their summed messages and the clamped
    in-degrees. -/
theorem first_layer : val_main_v26 (F := Ideal) x0 x1 x2 x3 x4
    = layerDivRelu x0 (val_main_v11 (F := Ideal) x0 x1 x2) (val_main_v17 (F := Ideal) x2) x3 x4 := by
  funext i
  obtain ⟨p, q, rfl⟩ : ∃ (p : Fin 100000) (q : Fin 128), i = ix2 p q := ⟨i 0, i 1, eq_ix2 i⟩
  rw [val_main_v26_apply, linear_at, val_main_call0_v0_apply, val_main_call0_cst_apply]
  rfl

/-! ## The second layer -/

/-- The second product's left operand at (p, k). -/
theorem combine_at' (p : Fin 100000) (k : Fin 128) : val_main_v48 (F := Ideal) x0 x1 x2 x3 x4 (ix2 p k)
    = Ideal.ofBits .f32 0x3F800000#32 * val_main_v26 (F := Ideal) x0 x1 x2 x3 x4 (ix2 p k)
      + Ideal.div (val_main_v38 (F := Ideal) x0 x1 x2 x3 x4 (ix2 p k)) (val_main_v44 (F := Ideal) x2 (ix1 p)) := by
  rw [val_main_v48_apply, val_main_v47_apply, val_main_v28_apply, val_main_v27_apply, val_main_cst_5_apply,
    val_main_v46_apply, val_main_v45_apply, deg_at']
  rfl

/-- The second layer at (p, q). -/
theorem linear_at' (p : Fin 100000) (q : Fin 128) : val_main_v52 (F := Ideal) x0 x1 x2 x3 x4 x5 x6 (ix2 p q)
    = entryDiv (val_main_v26 (F := Ideal) x0 x1 x2 x3 x4) (val_main_v38 (F := Ideal) x0 x1 x2 x3 x4)
        (val_main_v44 (F := Ideal) x2) x5 x6 p q := by
  rw [val_main_v52_apply, val_main_v49_apply, val_main_v51_apply, val_main_v50_apply, bias_at', Ideal.addf_def]
  unfold entryDiv
  refine congrArg₂ (· + ·) (Finset.sum_congr rfl fun k _ => ?_) rfl
  rw [lhs_at', rhs_at', combine_at']

/-- The second layer: the quotient spelling over the first layer's result, its summed messages and the clamped
    in-degrees. -/
theorem second_layer : val_main_v52 (F := Ideal) x0 x1 x2 x3 x4 x5 x6
    = layerDiv (val_main_v26 (F := Ideal) x0 x1 x2 x3 x4) (val_main_v38 (F := Ideal) x0 x1 x2 x3 x4)
        (val_main_v44 (F := Ideal) x2) x5 x6 := by
  funext i
  obtain ⟨p, q, rfl⟩ : ∃ (p : Fin 100000) (q : Fin 128), i = ix2 p q := ⟨i 0, i 1, eq_ix2 i⟩
  exact linear_at' x0 x1 x2 x3 x4 x5 x6 p q

/-- The clamped in-degree is nowhere zero: it is a maximum with 1.0. -/
theorem clamp_ne_zero (p : Fin 100000) : val_main_v17 (F := Ideal) x2 (ix1 p) ≠ 0 := by
  rw [val_main_v17_apply, val_main_v16_apply, val_main_cst_4_apply]
  exact max_one_ne_zero _

end Cert.ReferenceIdeal.Layers

end
-- ==== Proof.Bridge.lean ====
/-
  The kernel program's result and the reference's are one function of the seven arguments.

  Both programs form the same summed messages (the same gather and the same scatter of the same operands; the kernel
  side passes the gathered rows through the 16-bit format and back, which is the identity on extended reals) and the
  same clamped in-degrees. What remains is the layer itself, in its two spellings (`GinLayer`): the kernel multiplies
  the messages by the reciprocal column and adds the bias as one row, the reference multiplies the features by the
  word 1.0, divides the messages by the clamped in-degree and adds the bias vector. They agree because the clamped
  in-degree, a maximum with 1.0, is never zero.
-/
import proofs.«162521_j87814901334660_2_alg».proof.Proof.KernelValue
import proofs.«162521_j87814901334660_2_alg».proof.Proof.RefLayers
import proofs.«162521_j87814901334660_2_alg».proof.Proof.LibColumns
import Idealize.ShloMosaic.Lib.ValueLayout
import Idealize.ShloMosaic.Lib.Pipeline.Value

noncomputable section

namespace Cert.Bridge

open Idealize.ShloMosaic Idealize.ShloMosaic.ValueIdx Idealize.ShloMosaic.Pipeline GinLayer
open Cert.KernelIdeal.HostSide Cert.ReferenceIdeal.Read Cert.ReferenceIdeal.Layers

variable (x0 : (⟨Cert.ReferenceIdeal.S100000x128, .f32⟩ : BufTy).Contents (Elt Ideal))
  (x1 x2 : (⟨Cert.ReferenceIdeal.S1600000, .i32⟩ : BufTy).Contents (Elt Ideal))
  (x3 : (⟨Cert.ReferenceIdeal.S128x128, .f32⟩ : BufTy).Contents (Elt Ideal)) (x4 : (⟨Cert.ReferenceIdeal.S128, .f32⟩ : BufTy).Contents (Elt Ideal))
  (x5 : (⟨Cert.ReferenceIdeal.S128x128, .f32⟩ : BufTy).Contents (Elt Ideal)) (x6 : (⟨Cert.ReferenceIdeal.S128, .f32⟩ : BufTy).Contents (Elt Ideal))

/-! ## The shared host functions -/

/-- Rows gathered from an array narrowed to 16 bits, widened back, are the rows gathered from the array. -/
theorem gather_roundtrip (x : (⟨Cert.KernelIdeal.S100000x128, .f32⟩ : BufTy).Contents (Elt Ideal))
    (idx : (⟨Cert.KernelIdeal.S1600000x1, .i32⟩ : BufTy).Contents (Elt Ideal)) :
    extf (F := Ideal) .f32
      (Host.gather Cert.KernelIdeal.gather_S100000x128_S1600000x1_S1600000x128_1_0_n_n_0_1_1128
        (truncf (F := Ideal) .bf16 x Cert.KernelIdeal.Facts₀.bitsLt_bf16_f32) idx) Cert.KernelIdeal.Facts₀.bitsLt_bf16_f32
    = Host.gather Cert.KernelIdeal.gather_S100000x128_S1600000x1_S1600000x128_1_0_n_n_0_1_1128 x idx :=
  funext fun _ => rfl

/-- The kernel program's summed messages are the reference's first ones. -/
theorem summed_first : summed x0 x1 x2 = val_main_v11 (F := Ideal) x0 x1 x2 := by
  unfold summed
  rw [gather_roundtrip]
  rfl

/-- The kernel program's summed messages of the first layer's result are the reference's second ones. -/
theorem summed_second : summed (val_main_v26 (F := Ideal) x0 x1 x2 x3 x4) x1 x2 = val_main_v38 (F := Ideal) x0 x1 x2 x3 x4 := by
  unfold summed
  rw [gather_roundtrip]
  rfl

/-- The clamped in-degrees are the reference's, both times it computes them. -/
theorem clamp_first : clampDeg x2 = val_main_v17 (F := Ideal) x2 := rfl
theorem clamp_second : clampDeg x2 = val_main_v44 (F := Ideal) x2 := rfl

/-! ## The column, the clamp and the bias row at an index -/

/-- A scalar constant spread to a vector reads the constant's word everywhere. -/
theorem splat_at (h : Cert.KernelIdeal.S_.BroadcastsInDim Cert.KernelIdeal.S100000 (![] : Fin 0 → Fin Cert.KernelIdeal.S100000.rank))
    (w : BitVec 32) (p : Fin 100000) :
    broadcastInDim Cert.KernelIdeal.S100000 ![] h (constant (F := Ideal) Cert.KernelIdeal.S_ .f32 w) (ix1 p) = Ideal.ofBits .f32 w :=
  (broadcastInDim_apply _ h _ (ix1 p) ix0 (fun a => a.elim0)).trans rfl

/-- The host's quotient of two arrays at an index is the quotient of their entries. -/
theorem hostDivf_at {s : Shape} (a b : FVec Ideal s .f32) (i : s.Idx) :
    Host.divf (F := Ideal) a b i = Ideal.div (a i) (b i) := rfl

theorem recip_at (p : Fin 100000) :
    recipCol x2 (ix2 p (0 : Fin 1)) = Ideal.div (Ideal.ofBits .f32 0x3F800000#32) (clampDeg x2 (ix1 p)) := by
  unfold recipCol
  rw [shapeCast_a_a1_apply]
  refine (hostDivf_at _ _ (ix1 p)).trans ?_
  rw [splat_at]

theorem clamp_ne_zero' (p : Fin 100000) : clampDeg x2 (ix1 p) ≠ 0 := by
  rw [clamp_first]
  exact clamp_ne_zero x2 p

theorem bias_row_at (b : (⟨Cert.ReferenceIdeal.S128, .f32⟩ : BufTy).Contents (Elt Ideal)) (q : Fin 128) :
    biasRow b (ix2 (0 : Fin 1) q) = b (ix1 q) :=
  shapeCast_a_1a_apply b _ 0 q

/-! ## The two results -/

/-- The first layer's clamped result in the kernel program is the reference's. -/
theorem first_result : layerMulRelu x0 (summed x0 x1 x2) (recipCol x2) x3 (biasRow x4) = val_main_v26 (F := Ideal) x0 x1 x2 x3 x4 := by
  rw [layerMulRelu_eq_layerDivRelu x0 (summed x0 x1 x2) (recipCol x2) (clampDeg x2) x3 (biasRow x4) x4
    (recip_at x2) (clamp_ne_zero' x2) (bias_row_at x4), summed_first, clamp_first]
  exact (first_layer x0 x1 x2 x3 x4).symm

/-- The kernel program's result is the reference's. -/
theorem result_eq : result x0 x1 x2 x3 x4 x5 x6 = val_main_v52 (F := Ideal) x0 x1 x2 x3 x4 x5 x6 := by
  unfold result
  rw [first_result x0 x1 x2 x3 x4,
    layerMul_eq_layerDiv (val_main_v26 (F := Ideal) x0 x1 x2 x3 x4) (summed (val_main_v26 (F := Ideal) x0 x1 x2 x3 x4) x1 x2)
      (recipCol x2) (clampDeg x2) x5 (biasRow x6) x6 (recip_at x2) (clamp_ne_zero' x2) (bias_row_at x6),
    summed_second, clamp_second]
  exact (second_layer x0 x1 x2 x3 x4 x5 x6).symm

end Cert.Bridge

end
-- ==== Proof.lean ====
/-
  Two graph-isomorphism layers with mean aggregation over 100000 nodes and 1600000 edges, 128 features:

      h   = max( ( x + mean_{e → v} x[src e] ) · W1 + b1 , 0 )
      out =      ( h + mean_{e → v} h[src e] ) · W2 + b2

  where the mean over a node's incoming edges is the sum of the gathered rows divided by max(in-degree, 1).

  The kernel program forms the sums and the in-degrees on the host, keeps 1 / max(in-degree, 1) as a column, and runs
  one tiled kernel per layer (20 row blocks of 5000 nodes) that multiplies the summed messages by the column, adds
  the features, multiplies by the weights into a zero accumulator, adds the bias row, and — first layer only — clamps
  below at zero. The reference does the same with a quotient by max(in-degree, 1), the features multiplied by 1.0,
  and whole-array matrix products. On the extended reals the two are equal because m · (1 / c) = m / c for c ≠ 0,
  c = max(in-degree, 1) ≥ 1, and 1 · x = x; no sum is regrouped, so the finiteness of the inputs is never used.

  The three frames are the generated ones (the reference's is its generated run with the result dropped); the
  idealization rewrote nothing, so `preserves` is trivial; `algebraic` joins the kernel program's run with its result
  named (`Run.run_named`, `HostSide.final_value`) to the reference's generated run through `Bridge.result_eq`.
-/
import proofs.«162521_j87814901334660_2_alg».proof.Defs
import proofs.«162521_j87814901334660_2_alg».proof.Proof.Gen.Kernel
import proofs.«162521_j87814901334660_2_alg».proof.Proof.Gen.Kernel.Frame
import proofs.«162521_j87814901334660_2_alg».proof.Proof.Gen.KernelIdeal
import proofs.«162521_j87814901334660_2_alg».proof.Proof.Gen.KernelIdeal.Frame
import proofs.«162521_j87814901334660_2_alg».proof.Proof.Gen.ReferenceIdeal
import proofs.«162521_j87814901334660_2_alg».proof.Proof.Gen.ReferenceIdeal.Run
import proofs.«162521_j87814901334660_2_alg».proof.Proof.Gen.ReferenceIdeal.Read
import proofs.«162521_j87814901334660_2_alg».proof.Proof.Gen.Pre_finite_inputs
import proofs.«162521_j87814901334660_2_alg».proof.Proof.KernelRun
import proofs.«162521_j87814901334660_2_alg».proof.Proof.KernelValue
import proofs.«162521_j87814901334660_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the seven arguments both programs end with the same result array: the kernel
    program's `HostSide.result` of the arguments, which is the reference's last stage (`Bridge.result_eq`). -/
theorem algebraic : Cert.algebraic_KernelIdeal_ReferenceIdeal := by
  intro m ρ m' ρ' _ hagree
  refine ⟨fun c => Cert.KernelIdeal.HostSide.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.HostSide.final_value m ρ c), (h c).2⟩)
      (Cert.KernelIdeal.Run.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v52_eq, (hagree c).1, (hagree c).2.1, (hagree c).2.2.1, (hagree c).2.2.2.1,
      (hagree c).2.2.2.2.1, (hagree c).2.2.2.2.2.1, (hagree c).2.2.2.2.2.2]
    exact (Cert.Bridge.result_eq _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
